-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x2048x1408 : Shape := ⟨3, ![8, 2048, 1408]⟩
abbrev S8x1408x2048 : Shape := ⟨3, ![8, 1408, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x2048x1408 : S_.BroadcastsInDim S8x2048x1408 (![] : Fin 0 → Fin S8x2048x1408.rank)
  reducesTo_S8x2048x1408_S_d0_1_2 : S8x2048x1408.ReducesTo [0, 1, 2] S_
  bcast_S_S8x1408x2048 : S_.BroadcastsInDim S8x1408x2048 (![] : Fin 0 → Fin S8x1408x2048.rank)
  reducesTo_S8x1408x2048_S_d0_1_2 : S8x1408x2048.ReducesTo [0, 1, 2] S_

variable [Facts]

def fn_part1 {F : FTy → Type} [FloatOps F] (main_v13 : IVec S_ 1) (main_v16 : IVec S8x1408x2048 1) : IVec S_ 1 :=
  let main_c_5 : IVec S_ 1 := constantI S_ 1 1#1
  let main_v17 : IVec S_ 1 := (fun x v => Host.reduce IntOp.andi x v reducesTo_S8x1408x2048_S_d0_1_2 h_S_) main_v16 main_c_5
  let main_v18 : IVec S_ 1 := andi main_v13 main_v17
  main_v18

def fn {F : FTy → Type} [FloatOps F] (main_arg0 : FVec F S8x1024x2048 .f32) (main_arg1 : FVec F S8x2048x1408 .f32) (main_arg2 : FVec F S8x2048x1408 .f32) (main_arg3 : FVec F S8x1408x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x2048x1408 .f32 := Host.absf main_arg1
  let main_cst_0 : FVec F S_ .f32 := constant S_ .f32 0x7F800000#32
  let main_v5 : FVec F S8x2048x1408 .f32 := broadcastInDim S8x2048x1408 ![] bcast_S_S8x2048x1408 main_cst_0
  let main_v6 : IVec S8x2048x1408 1 := cmpf .olt main_v4 main_v5
  let main_c_1 : IVec S_ 1 := constantI S_ 1 1#1
  let main_v7 : IVec S_ 1 := (fun x v => Host.reduce IntOp.andi x v reducesTo_S8x2048x1408_S_d0_1_2 h_S_) main_v6 main_c_1
  let main_v8 : IVec S_ 1 := andi main_v3 main_v7
  let main_v9 : FVec F S8x2048x1408 .f32 := Host.absf main_arg2
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  let main_v14 : FVec F S8x1408x2048 .f32 := Host.absf main_arg3
  let main_cst_4 : FVec F S_ .f32 := constant S_ .f32 0x7F800000#32
  let main_v15 : FVec F S8x1408x2048 .f32 := broadcastInDim S8x1408x2048 ![] bcast_S_S8x1408x2048 main_cst_4
  let main_v16 : IVec S8x1408x2048 1 := cmpf .olt main_v14 main_v15
  fn_part1 (F := F) main_v13 main_v16
-- ==== Kernel.lean ====
abbrev S8x1024x2048 : Shape := ⟨3, ![8, 1024, 2048]⟩
abbrev S8x2048x1408 : Shape := ⟨3, ![8, 2048, 1408]⟩
abbrev S8x1408x2048 : Shape := ⟨3, ![8, 1408, 2048]⟩
abbrev S1x256x2048 : Shape := ⟨3, ![1, 256, 2048]⟩
abbrev S1x2048x1408 : Shape := ⟨3, ![1, 2048, 1408]⟩
abbrev S1x1408x2048 : Shape := ⟨3, ![1, 1408, 2048]⟩
abbrev S256x2048 : Shape := ⟨2, ![256, 2048]⟩
abbrev S2048x1408 : Shape := ⟨2, ![2048, 1408]⟩
abbrev S1408x2048 : Shape := ⟨2, ![1408, 2048]⟩
abbrev S256x1408 : Shape := ⟨2, ![256, 1408]⟩

abbrev nBuf : Space → Nat
  | .hbm => 9
  | .vmem => 7
  | .smem => 0
  | _ => 0

abbrev bufTy : (tb : Table) → Fin (tcTables nBuf tb) → BufTy
  | .hbm, ⟨0, _⟩ => ⟨S8x1024x2048, .f32⟩
  | .hbm, ⟨1, _⟩ => ⟨S8x2048x1408, .f32⟩
  | .hbm, ⟨2, _⟩ => ⟨S8x2048x1408, .f32⟩
  | .hbm, ⟨3, _⟩ => ⟨S8x1408x2048, .f32⟩
  | .hbm, ⟨4, _⟩ => ⟨S8x1024x2048, .bf16⟩
  | .hbm, ⟨5, _⟩ => ⟨S8x2048x1408, .bf16⟩
  | .hbm, ⟨6, _⟩ => ⟨S8x2048x1408, .bf16⟩
  | .hbm, ⟨7, _⟩ => ⟨S8x1408x2048, .bf16⟩
  | .hbm, ⟨8, _⟩ => ⟨S8x1024x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1408x2048, .bf16⟩
  | .local _ .vmem, ⟨5, _⟩ => ⟨S1x256x2048, .f32⟩
  | .local _ .vmem, ⟨6, _⟩ => ⟨S1x256x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1408x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  inb_S1x1408x2048_S1x1408x2048_0_0_0 : ∀ a, (![0, 0, 0] : Fin 3 → Nat) a + S1x1408x2048.size a ≤ S1x1408x2048.size a
  h_S1x1408x2048 : 0 < S1x1408x2048.numel
  shapeCasts_S1x1408x2048_S1408x2048 : S1x1408x2048.ShapeCasts S1408x2048
  shapeCasts_S256x2048_S1x256x2048 : S256x2048.ShapeCasts S1x256x2048
  dot_S256x2048_S2048x1408_S256x1408_1_0_0_1_n_n_wf : DotDims.WF S256x2048 S2048x1408 S256x1408 [1] [0] [0] [1] [] []
  dot_S256x1408_S1408x2048_S256x2048_1_0_0_1_n_n_wf : DotDims.WF S256x1408 S1408x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x1024x2048.size a
  hwx0_0 : ∀ i : grid0.Coords, EltTy.bits .bf16 = 32 ∨ (Rect.block (s := S8x1024x2048) S1x256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1408.size a ≤ S8x2048x1408.size a
  hwx0_1 : ∀ i : grid0.Coords, EltTy.bits .bf16 = 32 ∨ (Rect.block (s := S8x2048x1408) S1x2048x1408.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1408.size a ≤ S8x2048x1408.size a
  hwx0_2 : ∀ i : grid0.Coords, EltTy.bits .bf16 = 32 ∨ (Rect.block (s := S8x2048x1408) S1x2048x1408.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1408x2048.size a ≤ S8x1408x2048.size a
  hwx0_3 : ∀ i : grid0.Coords, EltTy.bits .bf16 = 32 ∨ (Rect.block (s := S8x1408x2048) S1x1408x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x1024x2048.size a
  hwx0_4 : ∀ i : grid0.Coords, EltTy.bits .f32 = 32 ∨ (Rect.block (s := S8x1024x2048) S1x256x2048.size (cc0_transform_4 i) (hinb0_4 i)).WholeWords (EltTy.packing .f32)

variable [Facts₀]

def dot_S256x2048_S2048x1408_S256x1408_1_0_0_1_n_n : DotDims S256x2048 S2048x1408 S256x1408 where
  lhsContracting := [1]
  rhsContracting := [0]
  lhsNonContracting := [0]
  rhsNonContracting := [1]
  lhsBatch := []
  rhsBatch := []
  wf := dot_S256x2048_S2048x1408_S256x1408_1_0_0_1_n_n_wf
def dot_S256x1408_S1408x2048_S256x2048_1_0_0_1_n_n : DotDims S256x1408 S1408x2048 S256x2048 where
  lhsContracting := [1]
  rhsContracting := [0]
  lhsNonContracting := [0]
  rhsNonContracting := [1]
  lhsBatch := []
  rhsBatch := []
  wf := dot_S256x1408_S1408x2048_S256x2048_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x1408.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1408.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1408x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S8x2048x1408 : Shape := ⟨3, ![8, 2048, 1408]⟩
abbrev S8x1408x2048 : Shape := ⟨3, ![8, 1408, 2048]⟩
abbrev S8x1024x1408 : Shape := ⟨3, ![8, 1024, 1408]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x2048x1408, .f32⟩
  | .hbm, ⟨2, _⟩ => ⟨S8x2048x1408, .f32⟩
  | .hbm, ⟨3, _⟩ => ⟨S8x1408x2048, .f32⟩
  | .hbm, ⟨4, _⟩ => ⟨S8x1024x1408, .f32⟩
  | .hbm, ⟨5, _⟩ => ⟨S8x1024x1408, .f32⟩
  | .hbm, ⟨6, _⟩ => ⟨S8x1024x1408, .f32⟩
  | .hbm, ⟨7, _⟩ => ⟨S_, .f32⟩
  | .hbm, ⟨8, _⟩ => ⟨S8x1024x1408, .f32⟩
  | .hbm, ⟨9, _⟩ => ⟨S8x1024x1408, .f32⟩
  | .hbm, ⟨10, _⟩ => ⟨S_, .f32⟩
  | .hbm, ⟨11, _⟩ => ⟨S8x1024x1408, .f32⟩
  | .hbm, ⟨12, _⟩ => ⟨S8x1024x1408, .f32⟩
  | .hbm, ⟨13, _⟩ => ⟨S8x1024x1408, .f32⟩
  | .hbm, ⟨14, _⟩ => ⟨S8x1024x1408, .f32⟩
  | .hbm, ⟨15, _⟩ => ⟨S8x1024x1408, .f32⟩
  | .hbm, ⟨16, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x1024x1408 : S_.BroadcastsInDim S8x1024x1408 (![] : Fin 0 → Fin S8x1024x1408.rank)
  dot_S8x1024x2048_S8x2048x1408_S8x1024x1408_2_1_1_2_0_0_wf : DotDims.WF S8x1024x2048 S8x2048x1408 S8x1024x1408 [2] [1] [1] [2] [0] [0]
  dot_S8x1024x1408_S8x1408x2048_S8x1024x2048_2_1_1_2_0_0_wf : DotDims.WF S8x1024x1408 S8x1408x2048 S8x1024x2048 [2] [1] [1] [2] [0] [0]

variable [Facts₀]

def dot_S8x1024x2048_S8x2048x1408_S8x1024x1408_2_1_1_2_0_0 : DotDims S8x1024x2048 S8x2048x1408 S8x1024x1408 where
  lhsContracting := [2]
  rhsContracting := [1]
  lhsNonContracting := [1]
  rhsNonContracting := [2]
  lhsBatch := [0]
  rhsBatch := [0]
  wf := dot_S8x1024x2048_S8x2048x1408_S8x1024x1408_2_1_1_2_0_0_wf
def dot_S8x1024x1408_S8x1408x2048_S8x1024x2048_2_1_1_2_0_0 : DotDims S8x1024x1408 S8x1408x2048 S8x1024x2048 where
  lhsContracting := [2]
  rhsContracting := [1]
  lhsNonContracting := [1]
  rhsNonContracting := [2]
  lhsBatch := [0]
  rhsBatch := [0]
  wf := dot_S8x1024x1408_S8x1408x2048_S8x1024x2048_2_1_1_2_0_0_wf

class Facts : Prop extends Facts₀ where

variable [Facts]
-- ==== Proof.GatedMlp.lean ====
/-
  The gated feed-forward block of one expert, entry by entry, on the extended reals.

  A token's row `x` (2048 entries) is projected by the expert's gate and up matrices `g`, `u` (2048 × 1408):
  `a i = Σ k, x k · g k i` and `b i = Σ k, x k · u k i`.  The hidden activation is `a i · σ (a i) · b i` with
  `σ a = 1 / (1 + e^(-a))` the logistic function (so `a · σ a` is the SiLU of `a`), and one output entry is the hidden row
  against one column `d` of the down matrix (1408 entries): `Σ i, (a i · σ (a i) · b i) · d i`.

  `entryAt` and `out` lay these entries over the whole `[8, 1024, 2048]` result: entry `(e, t, h)` uses row `t` of expert `e`'s tokens,
  expert `e`'s gate and up matrices and column `h` of its down matrix.  No law of arithmetic is needed between the two
  programs compared against this function: both compute exactly these sums and products in this order, so the
  infinities of the extended reals cause no difficulty and no finiteness is assumed.
-/
import Idealize.ShloMosaic.Lib.ValueIdx
import Idealize.ShloMosaic.PureOps.Ideal.Laws
import Idealize.ShloMosaic.PureOps.IdealRules

noncomputable section

namespace Cert.GatedMlp

open Idealize.ShloMosaic Idealize.ShloMosaic.ValueIdx

/-- One output entry: the hidden row `a i · σ (a i) · b i` of a token against one column of the down matrix. -/
def entry (x : Fin 2048 → EReal) (g u : Fin 2048 → Fin 1408 → EReal) (d : Fin 1408 → EReal) : EReal :=
  ∑ i : Fin 1408, ((∑ k : Fin 2048, x k * g k i) * Ideal.logistic (∑ k : Fin 2048, x k * g k i)
    * (∑ k : Fin 2048, x k * u k i)) * d i

/-- Entry `(e, t, h)` of the result: token row `(e, t)`, expert `e`'s gate and up matrices, column `h` of its down matrix. -/
def entryAt (x : (⟨3, ![8, 1024, 2048]⟩ : Shape).Idx → EReal) (g u : (⟨3, ![8, 2048, 1408]⟩ : Shape).Idx → EReal)
    (d : (⟨3, ![8, 1408, 2048]⟩ : Shape).Idx → EReal) (e : Fin 8) (t : Fin 1024) (h : Fin 2048) : EReal :=
  entry (fun k => x (ix3 e t k)) (fun k i => g (ix3 e k i)) (fun k i => u (ix3 e k i)) (fun i => d (ix3 e i h))

/-- The whole result, index by index. -/
def out (x : (⟨3, ![8, 1024, 2048]⟩ : Shape).Idx → EReal) (g u : (⟨3, ![8, 2048, 1408]⟩ : Shape).Idx → EReal)
    (d : (⟨3, ![8, 1408, 2048]⟩ : Shape).Idx → EReal) : (⟨3, ![8, 1024, 2048]⟩ : Shape).Idx → EReal :=
  fun j => entryAt x g u d (j 0) (j 1) (j 2)

/-- The single-precision word of 1.0 denotes the real number one. -/
theorem one_word : Ideal.ofBits .f32 0x3F800000#32 = 1 := IdealRules.sign_bit.ideal_onePat .f32

/-- The logistic function spelt with that word for its two ones. -/
theorem logistic_words (a : EReal) :
    Ideal.div (Ideal.ofBits .f32 0x3F800000#32) (Ideal.ofBits .f32 0x3F800000#32 + Ideal.exp (-a)) = Ideal.logistic a := by
  rw [one_word]; rfl

end Cert.GatedMlp

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.Payload.lean ====
/-
  The kernel body's arithmetic at one entry of its output block.

  The body loads a `[1, 256, 2048]` block of token rows and an expert's whole gate, up and down matrices, forms the two
  projections on the matrix unit (into zero accumulators), multiplies `a · σ a · b` entry by entry and sends the hidden
  block through the matrix unit against the down matrix.  On the extended reals a change of float format is the identity
  and a matrix product into zero is the plain sum over the contracted axis, so entry `(0, p, q)` of the stored block is
  `GatedMlp.entry` of row `p` of the token block, the two matrices and column `q` of the down matrix.
-/
import proofs.«144864_j57054345560720_2_alg».proof.Proof.Gen.KernelIdeal.Skeleton
import proofs.«144864_j57054345560720_2_alg».proof.Proof.GatedMlp
import proofs.«144864_j57054345560720_2_alg».proof.Proof.LibPlainDot
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The projections' dimension record: `[256, 2048] × [2048, 1408]`, the left operand's second axis against the right's first. -/
abbrev Dproj : DotDims S256x2048 S2048x1408 S256x1408 := dot_S256x2048_S2048x1408_S256x1408_1_0_0_1_n_n
/-- The down product's dimension record: `[256, 1408] × [1408, 2048]`. -/
abbrev Ddown : DotDims S256x1408 S1408x2048 S256x2048 := dot_S256x1408_S1408x2048_S256x2048_1_0_0_1_n_n

theorem proj_l0 (i : S256x1408.Idx) (q : Dproj.contr.Idx) : (Dproj.lhsIdx i q 0).val = (i 0).val := by
  unfold DotDims.lhsIdx
  rw [dif_neg (show ¬(0 : Fin S256x2048.rank) ∈ Dproj.lhsBatch by decide), dif_pos (show (0 : Fin S256x2048.rank) ∈ Dproj.lhsNonContracting by decide)]
  rfl
theorem proj_l1 (i : S256x1408.Idx) (q : Dproj.contr.Idx) : (Dproj.lhsIdx i q 1).val = (q ⟨0, by decide⟩).val :=
  Dproj.lhsIdx_val_of_single rfl i q
theorem proj_r0 (i : S256x1408.Idx) (q : Dproj.contr.Idx) : (Dproj.rhsIdx i q 0).val = (q ⟨0, by decide⟩).val :=
  Dproj.rhsIdx_val_of_single rfl i q
theorem proj_r1 (i : S256x1408.Idx) (q : Dproj.contr.Idx) : (Dproj.rhsIdx i q 1).val = (i 1).val := by
  unfold DotDims.rhsIdx
  rw [dif_neg (show ¬(1 : Fin S2048x1408.rank) ∈ Dproj.rhsBatch by decide), dif_pos (show (1 : Fin S2048x1408.rank) ∈ Dproj.rhsNonContracting by decide)]
  rfl

theorem down_l0 (i : S256x2048.Idx) (q : Ddown.contr.Idx) : (Ddown.lhsIdx i q 0).val = (i 0).val := by
  unfold DotDims.lhsIdx
  rw [dif_neg (show ¬(0 : Fin S256x1408.rank) ∈ Ddown.lhsBatch by decide), dif_pos (show (0 : Fin S256x1408.rank) ∈ Ddown.lhsNonContracting by decide)]
  rfl
theorem down_l1 (i : S256x2048.Idx) (q : Ddown.contr.Idx) : (Ddown.lhsIdx i q 1).val = (q ⟨0, by decide⟩).val :=
  Ddown.lhsIdx_val_of_single rfl i q
theorem down_r0 (i : S256x2048.Idx) (q : Ddown.contr.Idx) : (Ddown.rhsIdx i q 0).val = (q ⟨0, by decide⟩).val :=
  Ddown.rhsIdx_val_of_single rfl i q
theorem down_r1 (i : S256x2048.Idx) (q : Ddown.contr.Idx) : (Ddown.rhsIdx i q 1).val = (i 1).val := by
  unfold DotDims.rhsIdx
  rw [dif_neg (show ¬(1 : Fin S1408x2048.rank) ∈ Ddown.rhsBatch by decide), dif_pos (show (1 : Fin S1408x2048.rank) ∈ Ddown.rhsNonContracting by decide)]
  rfl

/-- A projection of the token block at entry `(p, i)`: row `p` against column `i` of the expert's matrix. -/
theorem proj_apply (x0 : FVec Ideal S1x256x2048 .bf16) (w : FVec Ideal S1x2048x1408 .bf16) (p : Fin 256) (i : Fin 1408) :
    matmul (φ₁ := .bf16) (φ₂ := .bf16) Dproj none (shapeCast S256x2048 x0 Facts₀.shapeCasts_S1x256x2048_S256x2048)
        (shapeCast S2048x1408 w Facts₀.shapeCasts_S1x2048x1408_S2048x1408) (constant (F := Ideal) S256x1408 .f32 0x00000000#32) (ix2 p i)
      = ∑ k : Fin 2048, x0 (ix3 (0 : Fin 1) p k) * w (ix3 (0 : Fin 1) k i) := by
  rw [PlainDot.matmul_zero_apply Dproj none rfl rfl proj_l0 proj_l1 proj_r0 proj_r1]
  refine Finset.sum_congr rfl fun k _ => ?_
  rw [shapeCast_1ab_ab_apply, shapeCast_1ab_ab_apply]

/-- THE PAYLOAD AT AN ENTRY: entry `(0, p, q)` of the block the body stores. -/
theorem pay_apply (x0 : Vec Ideal S1x256x2048 .bf16) (x1 x2 : Vec Ideal S1x2048x1408 .bf16) (x3 : Vec Ideal S1x1408x2048 .bf16)
    (p : Fin 256) (q : Fin 2048) :
    k0_pay1 (F := Ideal) x0 x1 x2 x3 (ix3 (0 : Fin 1) p q)
      = GatedMlp.entry (fun k => x0 (ix3 (0 : Fin 1) p k)) (fun k i => x1 (ix3 (0 : Fin 1) k i))
          (fun k i => x2 (ix3 (0 : Fin 1) k i)) (fun i => x3 (ix3 (0 : Fin 1) i q)) := by
  unfold k0_pay1
  refine (shapeCast_ab_1ab_apply _ _ 0 p q).trans ?_
  refine (PlainDot.matmul_zero_apply Ddown none rfl rfl down_l0 down_l1 down_r0 down_r1 _ _ p q).trans ?_
  unfold GatedMlp.entry
  refine Finset.sum_congr rfl fun i _ => ?_
  refine congrArg₂ (· * ·) ?_ (shapeCast_1ab_ab_apply x3 _ i q)
  refine congrArg₂ (· * ·) (congrArg₂ (· * ·) (proj_apply x0 x1 p i) (congrArg Ideal.logistic (proj_apply x0 x1 p i))) (proj_apply x0 x2 p i)

/-- ONE STORED ENTRY AGAINST THE WHOLE-ARRAY FUNCTION.  Let the four loaded blocks be pieces of four arrays: the token block
    rows `s · 256 …` of expert `e`'s tokens, the weight blocks expert `e`'s whole matrices.  Then entry `y` of the stored
    block is `GatedMlp.out` of the arrays at expert `e`, row `s · 256 + y 1`, lane `y 2`. -/
theorem point_eq (x0 : Vec Ideal S1x256x2048 .bf16) (x1 x2 : Vec Ideal S1x2048x1408 .bf16) (x3 : Vec Ideal S1x1408x2048 .bf16)
    (A0 : S8x1024x2048.Idx → EReal) (A1 A2 : S8x2048x1408.Idx → EReal) (A3 : S8x1408x2048.Idx → EReal)
    (e s : ℕ) (y : S1x256x2048.Idx) (i : S8x1024x2048.Idx)
    (hi0 : (i 0).val = e) (hi1 : (i 1).val = s * 256 + (y 1).val) (hi2 : (i 2).val = (y 2).val)
    (h0 : ∀ (y' : S1x256x2048.Idx) (k : S8x1024x2048.Idx), (k 0).val = e → (k 1).val = s * 256 + (y' 1).val →
      (k 2).val = (y' 2).val → x0 y' = A0 k)
    (h1 : ∀ (y' : S1x2048x1408.Idx) (k : S8x2048x1408.Idx), (k 0).val = e → (k 1).val = (y' 1).val →
      (k 2).val = (y' 2).val → x1 y' = A1 k)
    (h2 : ∀ (y' : S1x2048x1408.Idx) (k : S8x2048x1408.Idx), (k 0).val = e → (k 1).val = (y' 1).val →
      (k 2).val = (y' 2).val → x2 y' = A2 k)
    (h3 : ∀ (y' : S1x1408x2048.Idx) (k : S8x1408x2048.Idx), (k 0).val = e → (k 1).val = (y' 1).val →
      (k 2).val = (y' 2).val → x3 y' = A3 k) :
    k0_pay1 (F := Ideal) x0 x1 x2 x3 y = GatedMlp.out A0 A1 A2 A3 i := by
  obtain ⟨u, p, q, rfl⟩ : ∃ (u : Fin 1) (p : Fin 256) (q : Fin 2048), y = ix3 u p q := ⟨y 0, y 1, y 2, eq_ix3 y⟩
  obtain rfl : u = 0 := Subsingleton.elim _ _
  rw [pay_apply]
  unfold GatedMlp.out GatedMlp.entryAt
  congr 1
  · funext k; exact h0 (ix3 0 p k) (ix3 (i 0) (i 1) k) hi0 hi1 rfl
  · funext k i'; exact h1 (ix3 0 k i') (ix3 (i 0) k i') hi0 rfl rfl
  · funext k i'; exact h2 (ix3 0 k i') (ix3 (i 0) k i') hi0 rfl rfl
  · funext i'; exact h3 (ix3 0 i' q) (ix3 (i 0) i' (i 2)) hi0 rfl hi2

end Cert.KernelIdeal.Hand

end
-- ==== Proof.KernelValue.lean ====
/-
  The idealized kernel's result array is the gated feed-forward function `GatedMlp.out` of its arguments.

  The grid has 8 × 4 points: point `(e, s)` handles expert `e` and the 256 token rows `256 s … 256 s + 255`.  Before the
  region the host converts the four arguments to bfloat16, which on the extended reals is the identity, so each window
  stages the argument itself.  The token window's block at `(e, s)` is rows `256 s …` of expert `e`'s tokens; each weight
  window's block is expert `e`'s whole matrix; the output window's block is rows `256 s …` of expert `e`'s result.  Entry
  `(0, p, q)` of what the body stores is `GatedMlp.entry` of those blocks (Payload), hence entry `(e, 256 s + p, q)` of
  `GatedMlp.out`; the 32 output blocks tile the result array, so the array ends holding `GatedMlp.out`.
-/
import proofs.«144864_j57054345560720_2_alg».proof.Proof.Gen.KernelIdeal.Value
import proofs.«144864_j57054345560720_2_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Cert.KernelIdeal.Value Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-! ## The arrays the windows stage are the arguments -/

theorem staged_tokens (c : Dev nD) :
    (V m c main_v0 : S8x1024x2048.Idx → EReal) = m ((c : Thread nD τ).loc main_arg0) := by
  dsimp only [Gen.V, Gen.hostOps0]; after_results; rfl
theorem staged_gate (c : Dev nD) :
    (V m c main_v1 : S8x2048x1408.Idx → EReal) = m ((c : Thread nD τ).loc main_arg1) := by
  dsimp only [Gen.V, Gen.hostOps0]; after_results; rfl
theorem staged_up (c : Dev nD) :
    (V m c main_v2 : S8x2048x1408.Idx → EReal) = m ((c : Thread nD τ).loc main_arg2) := by
  dsimp only [Gen.V, Gen.hostOps0]; after_results; rfl
theorem staged_down (c : Dev nD) :
    (V m c main_v3 : S8x1408x2048.Idx → EReal) = m ((c : Thread nD τ).loc main_arg3) := by
  dsimp only [Gen.V, Gen.hostOps0]; after_results; rfl

/-! ## The index maps over the grid -/

/-- Decided over the 32 points: every window's expert coordinate is the output's; the token window moves with the output
    along the rows; the weight windows take their matrices whole; the last axis is never cut. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 :=
  (by decide +kernel : ∀ t : Fin grid0.N, _)

/-- Every (expert, row block) pair is some point's output block. -/
theorem idx_onto : ∀ (e : Fin 8) (s : Fin 4), ∃ t : Fin cfg0.N, win0_4.index t = ![e.val, s.val, 0] :=
  (by decide +kernel : ∀ (e : Fin 8) (s : Fin 4), ∃ t : Fin grid0.N, win0_4.index t = ![e.val, s.val, 0])

/-! ## Each input block as entries of its argument -/

/-- The token block at point `t`: entry `y` is the argument's entry at the point's expert, row block and `y`'s row and lane. -/
theorem tokens_blk (c : Dev nD) (t : Fin cfg0.N) (y : S1x256x2048.Idx) (k : S8x1024x2048.Idx)
    (hk0 : (k 0).val = win0_4.index t (0 : Fin 3)) (hk1 : (k 1).val = win0_4.index t (1 : Fin 3) * 256 + (y 1).val)
    (hk2 : (k 2).val = (y 2).val) :
    (iblk m c 0 t : Vec Ideal S1x256x2048 .bf16) y = (m ((c : Thread nD τ).loc main_arg0) : S8x1024x2048.Idx → EReal) k := by
  obtain ⟨e0, e1, e2, -⟩ := idx_facts t
  have hy0 : (y 0).val < 1 := (y 0).isLt
  unfold iblk
  rw [View.read_apply]
  show (V m c main_v0 : S8x1024x2048.Idx → EReal) _ = _
  rw [staged_tokens]
  congr 1
  funext a; apply Fin.ext
  match a with
  | ⟨0, _⟩ => show win0_0.index t (0 : Fin 3) * 1 + 1 * (y 0).val = (k 0).val; omega
  | ⟨1, _⟩ => show win0_0.index t (1 : Fin 3) * 256 + 1 * (y 1).val = (k 1).val; omega
  | ⟨2, _⟩ => show win0_0.index t (2 : Fin 3) * 2048 + 1 * (y 2).val = (k 2).val; omega

/-- The gate block at point `t` is the point's expert's whole gate matrix. -/
theorem gate_blk (c : Dev nD) (t : Fin cfg0.N) (y : S1x2048x1408.Idx) (k : S8x2048x1408.Idx)
    (hk0 : (k 0).val = win0_4.index t (0 : Fin 3)) (hk1 : (k 1).val = (y 1).val) (hk2 : (k 2).val = (y 2).val) :
    (iblk m c 1 t : Vec Ideal S1x2048x1408 .bf16) y = (m ((c : Thread nD τ).loc main_arg1) : S8x2048x1408.Idx → EReal) k := by
  obtain ⟨-, -, -, e0, e1, e2, -⟩ := idx_facts t
  have hy0 : (y 0).val < 1 := (y 0).isLt
  unfold iblk
  rw [View.read_apply]
  show (V m c main_v1 : S8x2048x1408.Idx → EReal) _ = _
  rw [staged_gate]
  congr 1
  funext a; apply Fin.ext
  match a with
  | ⟨0, _⟩ => show win0_1.index t (0 : Fin 3) * 1 + 1 * (y 0).val = (k 0).val; omega
  | ⟨1, _⟩ => show win0_1.index t (1 : Fin 3) * 2048 + 1 * (y 1).val = (k 1).val; omega
  | ⟨2, _⟩ => show win0_1.index t (2 : Fin 3) * 1408 + 1 * (y 2).val = (k 2).val; omega

/-- The up block at point `t` is the point's expert's whole up matrix. -/
theorem up_blk (c : Dev nD) (t : Fin cfg0.N) (y : S1x2048x1408.Idx) (k : S8x2048x1408.Idx)
    (hk0 : (k 0).val = win0_4.index t (0 : Fin 3)) (hk1 : (k 1).val = (y 1).val) (hk2 : (k 2).val = (y 2).val) :
    (iblk m c 2 t : Vec Ideal S1x2048x1408 .bf16) y = (m ((c : Thread nD τ).loc main_arg2) : S8x2048x1408.Idx → EReal) k := by
  obtain ⟨-, -, -, -, -, -, e0, e1, e2, -⟩ := idx_facts t
  have hy0 : (y 0).val < 1 := (y 0).isLt
  unfold iblk
  rw [View.read_apply]
  show (V m c main_v2 : S8x2048x1408.Idx → EReal) _ = _
  rw [staged_up]
  congr 1
  funext a; apply Fin.ext
  match a with
  | ⟨0, _⟩ => show win0_2.index t (0 : Fin 3) * 1 + 1 * (y 0).val = (k 0).val; omega
  | ⟨1, _⟩ => show win0_2.index t (1 : Fin 3) * 2048 + 1 * (y 1).val = (k 1).val; omega
  | ⟨2, _⟩ => show win0_2.index t (2 : Fin 3) * 1408 + 1 * (y 2).val = (k 2).val; omega

/-- The down block at point `t` is the point's expert's whole down matrix. -/
theorem down_blk (c : Dev nD) (t : Fin cfg0.N) (y : S1x1408x2048.Idx) (k : S8x1408x2048.Idx)
    (hk0 : (k 0).val = win0_4.index t (0 : Fin 3)) (hk1 : (k 1).val = (y 1).val) (hk2 : (k 2).val = (y 2).val) :
    (iblk m c 3 t : Vec Ideal S1x1408x2048 .bf16) y = (m ((c : Thread nD τ).loc main_arg3) : S8x1408x2048.Idx → EReal) k := by
  obtain ⟨-, -, -, -, -, -, -, -, -, e0, e1, e2, -⟩ := idx_facts t
  have hy0 : (y 0).val < 1 := (y 0).isLt
  unfold iblk
  rw [View.read_apply]
  show (V m c main_v3 : S8x1408x2048.Idx → EReal) _ = _
  rw [staged_down]
  congr 1
  funext a; apply Fin.ext
  match a with
  | ⟨0, _⟩ => show win0_3.index t (0 : Fin 3) * 1 + 1 * (y 0).val = (k 0).val; omega
  | ⟨1, _⟩ => show win0_3.index t (1 : Fin 3) * 1408 + 1 * (y 1).val = (k 1).val; omega
  | ⟨2, _⟩ => show win0_3.index t (2 : Fin 3) * 2048 + 1 * (y 2).val = (k 2).val; omega

/-! ## What a point writes back, the cover, the array -/

/-- WHAT POINT `t` WRITES BACK is block `t` of `GatedMlp.out` of the arguments. -/
theorem flushed_eq (c : Dev nD) (t : Fin cfg0.N) :
    (dats m 0 c).flushed 4 t = ((cfg0.win 4).blk t).view.read (Elt Ideal)
      (GatedMlp.out (m ((c : Thread nD τ).loc main_arg0)) (m ((c : Thread nD τ).loc main_arg1))
        (m ((c : Thread nD τ).loc main_arg2)) (m ((c : Thread nD τ).loc main_arg3))) := by
  rw [Value.flushed4]
  unfold out0_4
  rw [View.canon_unit_zero hz]
  simp only [View.ld_unit_zero (S := S1x256x2048) hz, View.ld_unit_zero (S := S1x2048x1408) hz,
    View.ld_unit_zero (S := S1x1408x2048) hz]
  obtain ⟨-, -, -, -, -, -, -, -, -, -, -, -, e4⟩ := idx_facts t
  funext j
  have hj0 : (j 0).val < 1 := (j 0).isLt
  show k0_pay1 (F := Ideal) (iblk m c 0 t) (iblk m c 1 t) (iblk m c 2 t) (iblk m c 3 t) j
    = GatedMlp.out _ _ _ _ (((cfg0.win 4).blk t).view.emb j)
  refine point_eq _ _ _ _ _ _ _ _ (win0_4.index t (0 : Fin 3)) (win0_4.index t (1 : Fin 3)) j _ ?_ ?_ ?_
    (fun y k h0 h1 h2 => tokens_blk m c t y k h0 h1 h2) (fun y k h0 h1 h2 => gate_blk m c t y k h0 h1 h2)
    (fun y k h0 h1 h2 => up_blk m c t y k h0 h1 h2) (fun y k h0 h1 h2 => down_blk m c t y k h0 h1 h2)
  · show win0_4.index t (0 : Fin 3) * 1 + 1 * (j 0).val = _; omega
  · show win0_4.index t (1 : Fin 3) * 256 + 1 * (j 1).val = _; omega
  · show win0_4.index t (2 : Fin 3) * 2048 + 1 * (j 2).val = _; omega

/-- An index of the result array is in point `t`'s block iff each coordinate is in the block's range on its axis. -/
theorem mem_blk (t : Fin cfg0.N) (i : S8x1024x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v4).slice (win0_4.rect t)).set ↔ _
  rw [View.set_slice_whole, Rect.mem_set_unit]
  exact Iff.rfl

/-- The 32 output blocks cover the result array: index `(e, r, h)` lies in the block of the point with expert `e` and row
    block `r / 256`. -/
theorem covered (i : S8x1024x2048.Idx) : ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 2048 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- THE RESULT ARRAY after the run is `GatedMlp.out` of the arguments. -/
theorem final (c : Dev nD) : (dats m 0 c).arrAt 4 cfg0.N
    = GatedMlp.out (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) covered

/-- The kernel's run, read: the result array at `GatedMlp.out` of the arguments, the arguments unchanged. -/
theorem run : θ_run defs (onTc (τ := τ) (main (F := Ideal))) ⟨m, fun _ => 0, ρ⟩ fun r => ∀ c : Dev nD,
      r.2.mem ((c : Thread nD τ).loc main_v4)
        = GatedMlp.out (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Hand

end
-- ==== Proof.RefValue.lean ====
/-
  The reference program's result is the gated feed-forward function `GatedMlp.out` of its arguments.

  The host computes the three batched matrix products as sums over the contracted axis, the SiLU as
  `a · (1 / (1 + e^(-a)))` with both ones the single-precision word of 1.0, and the products entry by entry: read at
  an index this is `GatedMlp.entry` of the token's row, the expert's gate and up matrices and the down matrix's column.
-/
import proofs.«144864_j57054345560720_2_alg».proof.Proof.Gen.ReferenceIdeal.Read
import proofs.«144864_j57054345560720_2_alg».proof.Proof.GatedMlp

noncomputable section

namespace Cert.ReferenceIdeal.RefValue

open Cert.ReferenceIdeal Cert.ReferenceIdeal.Read Idealize.ShloMosaic Idealize.ShloMosaic.ValueIdx

/-- The operand indices of the first product at a hidden entry and contracted coordinate `k`, by coordinates. -/
theorem lidx_proj (i : S8x1024x1408.Idx) (k : Fin 2048) :
    lidx_main_v0 i k = ix3 (n0 := 8) (n1 := 1024) (n2 := 2048) (i 0) (i 1) k :=
  funext fun a => by match a with | ⟨0, _⟩ => rfl | ⟨1, _⟩ => rfl | ⟨2, _⟩ => rfl
theorem ridx_proj (i : S8x1024x1408.Idx) (k : Fin 2048) :
    ridx_main_v0 i k = ix3 (n0 := 8) (n1 := 2048) (n2 := 1408) (i 0) k (i 2) :=
  funext fun a => by match a with | ⟨0, _⟩ => rfl | ⟨1, _⟩ => rfl | ⟨2, _⟩ => rfl
/-- The same for the second product (the same dimension record). -/
theorem lidx_proj' (i : S8x1024x1408.Idx) (k : Fin 2048) :
    lidx_main_v2 i k = ix3 (n0 := 8) (n1 := 1024) (n2 := 2048) (i 0) (i 1) k :=
  funext fun a => by match a with | ⟨0, _⟩ => rfl | ⟨1, _⟩ => rfl | ⟨2, _⟩ => rfl
theorem ridx_proj' (i : S8x1024x1408.Idx) (k : Fin 2048) :
    ridx_main_v2 i k = ix3 (n0 := 8) (n1 := 2048) (n2 := 1408) (i 0) k (i 2) :=
  funext fun a => by match a with | ⟨0, _⟩ => rfl | ⟨1, _⟩ => rfl | ⟨2, _⟩ => rfl
/-- The down matrix's index at a result entry `(e, t, h)` and hidden coordinate `i`. -/
theorem ridx_down (j : S8x1024x2048.Idx) (i : Fin 1408) :
    ridx_main_v4 j i = ix3 (n0 := 8) (n1 := 1408) (n2 := 2048) (j 0) i (j 2) :=
  funext fun a => by match a with | ⟨0, _⟩ => rfl | ⟨1, _⟩ => rfl | ⟨2, _⟩ => rfl

/-- A projection's sum at a hidden entry, with the operand indices written by coordinates. -/
theorem proj_sum (x : S8x1024x2048.Idx → EReal) (w : S8x2048x1408.Idx → EReal) (i : S8x1024x1408.Idx) :
    ∑ k : Fin 2048, x (lidx_main_v0 i k) * w (ridx_main_v0 i k)
      = ∑ k : Fin 2048, x (ix3 (n0 := 8) (n1 := 1024) (n2 := 2048) (i 0) (i 1) k) * w (ix3 (n0 := 8) (n1 := 2048) (n2 := 1408) (i 0) k (i 2)) :=
  Finset.sum_congr rfl fun k _ => by rw [lidx_proj, ridx_proj]
theorem proj_sum' (x : S8x1024x2048.Idx → EReal) (w : S8x2048x1408.Idx → EReal) (i : S8x1024x1408.Idx) :
    ∑ k : Fin 2048, x (lidx_main_v2 i k) * w (ridx_main_v2 i k)
      = ∑ k : Fin 2048, x (ix3 (n0 := 8) (n1 := 1024) (n2 := 2048) (i 0) (i 1) k) * w (ix3 (n0 := 8) (n1 := 2048) (n2 := 1408) (i 0) k (i 2)) :=
  Finset.sum_congr rfl fun k _ => by rw [lidx_proj', ridx_proj']

/-- The reference's last stage is `GatedMlp.out` of the four arguments. -/
theorem result_eq (x0 : (⟨S8x1024x2048, .f32⟩ : BufTy).Contents (Elt Ideal)) (x1 x2 : (⟨S8x2048x1408, .f32⟩ : BufTy).Contents (Elt Ideal))
    (x3 : (⟨S8x1408x2048, .f32⟩ : BufTy).Contents (Elt Ideal)) :
    val_main_v4 (F := Ideal) x0 x1 x2 x3 = GatedMlp.out x0 x1 x2 x3 := by
  funext j
  rw [val_main_v4_apply]
  unfold GatedMlp.out GatedMlp.entryAt GatedMlp.entry
  refine Finset.sum_congr rfl fun i _ => ?_
  rw [val_main_v3_apply, val_main_v1_apply, val_main_call0_v5_apply, val_main_call0_v4_apply, val_main_call0_cst_0_apply,
    val_main_call0_v3_apply, val_main_call0_v2_apply, val_main_call0_cst_apply, val_main_call0_v1_apply,
    val_main_call0_v0_apply, val_main_v0_apply, val_main_v2_apply]
  simp only [Ideal.ofBits_def, Ideal.mulf_def, Ideal.addf_def, Ideal.hostDivf_def, Ideal.hostUnary_exp_def,
    Ideal.hostNegf_def, Ideal.negf_def, GatedMlp.logistic_words]
  rw [proj_sum x0 x1 (lidx_main_v4 j i), proj_sum' x0 x2 (lidx_main_v4 j i), ridx_down]
  rfl

end Cert.ReferenceIdeal.RefValue

end
-- ==== Proof.lean ====
/-
  A mixture-of-experts feed-forward layer: the kernel against its einsum reference, on the extended reals.

  For each of 8 experts and each of its 1024 tokens the result row is
  `(silu (x · G) ⊙ (x · U)) · D` with `G`, `U` of shape 2048 × 1408 and `D` of shape 1408 × 2048 the expert's gate, up and
  down matrices and `silu a = a · σ a`, `σ a = 1 / (1 + e^(-a))`.  The kernel tiles the work over a grid of
  8 experts × 4 blocks of 256 token rows, feeding the matrix unit bfloat16 copies of the operands; the reference
  computes three batched contractions with the SiLU spelt out.  On the extended reals a change of float format is the
  identity and both matrix products are the plain sum over the contracted axis, so both programs compute the same
  sums and products in the same order: the one function `GatedMlp.out` of the four argument arrays (GatedMlp).
  No arithmetic law is used, so the finiteness of the inputs is not needed for the values.

  The frames of the two kernel programs are the generated ones; the reference's frame is its generated run with the
  result dropped.  The idealization rewrote nothing, so there is nothing to preserve.  The kernel's value is read off
  the generated blockwise run (KernelValue, over Payload), the reference's off its generated run, stage by stage
  (RefValue).
-/
import proofs.«144864_j57054345560720_2_alg».proof.Defs
import proofs.«144864_j57054345560720_2_alg».proof.Proof.Gen.Kernel
import proofs.«144864_j57054345560720_2_alg».proof.Proof.Gen.Kernel.Skeleton
import proofs.«144864_j57054345560720_2_alg».proof.Proof.Gen.Kernel.Launch
import proofs.«144864_j57054345560720_2_alg».proof.Proof.Gen.Kernel.Points
import proofs.«144864_j57054345560720_2_alg».proof.Proof.Gen.Kernel.Frame
import proofs.«144864_j57054345560720_2_alg».proof.Proof.Gen.KernelIdeal
import proofs.«144864_j57054345560720_2_alg».proof.Proof.Gen.KernelIdeal.Skeleton
import proofs.«144864_j57054345560720_2_alg».proof.Proof.Gen.KernelIdeal.Launch
import proofs.«144864_j57054345560720_2_alg».proof.Proof.Gen.KernelIdeal.Points
import proofs.«144864_j57054345560720_2_alg».proof.Proof.Gen.KernelIdeal.Frame
import proofs.«144864_j57054345560720_2_alg».proof.Proof.Gen.ReferenceIdeal
import proofs.«144864_j57054345560720_2_alg».proof.Proof.Gen.KernelIdeal.Value
import proofs.«144864_j57054345560720_2_alg».proof.Proof.Gen.ReferenceIdeal.Run
import proofs.«144864_j57054345560720_2_alg».proof.Proof.Gen.ReferenceIdeal.Read
import proofs.«144864_j57054345560720_2_alg».proof.Proof.Gen.Pre_finite_inputs
import proofs.«144864_j57054345560720_2_alg».proof.Proof.KernelValue
import proofs.«144864_j57054345560720_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on the four arguments, end with the result array at `GatedMlp.out` of the
    arguments: the kernel by its blockwise run (`Hand.run`), the reference by its run read stage by stage (`result_eq`). -/
theorem algebraic : Cert.algebraic_KernelIdeal_ReferenceIdeal := by
  intro m ρ m' ρ' _ hagree
  refine ⟨fun c => GatedMlp.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
